-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8 : Shape := ⟨1, ![8]⟩
abbrev S8x1024x1024 : Shape := ⟨3, ![8, 1024, 1024]⟩
abbrev S8x1024 : Shape := ⟨2, ![8, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg5 : FVec F S8x1024 .f32) (main_v13 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : IVec S_ 1 := andi main_v13 main_v17
  let main_v19 : FVec F S8x1024 .f32 := Host.absf main_arg5
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S8192x1024 .f32) (main_arg1 : IVec S8 32) (main_arg2 : FVec F S8x1024x1024 .f32) (main_arg3 : FVec F S8x1024 .f32) (main_arg4 : FVec F S8x1024 .f32) (main_arg5 : FVec F S8x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x1024x1024 .f32 := Host.absf main_arg2
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S8x1024 .f32 := Host.absf main_arg4
  let main_cst_4 : FVec F S_ .f32 := constant S_ .f32 0x7F800000#32
  let main_v15 : FVec F S8x1024 .f32 := broadcastInDim S8x1024 ![] bcast_S_S8x1024 main_cst_4
  let main_v16 : IVec S8x1024 1 := cmpf .olt main_v14 main_v15
  fn_part1 (F := F) main_arg5 main_v13 main_v16
-- ==== Kernel.lean ====
abbrev S8192x1024 : Shape := ⟨2, ![8192, 1024]⟩
abbrev S8 : Shape := ⟨1, ![8]⟩
abbrev S8x1024x1024 : Shape := ⟨3, ![8, 1024, 1024]⟩
abbrev S8x1024 : Shape := ⟨2, ![8, 1024]⟩
abbrev S8x1x1024 : Shape := ⟨3, ![8, 1, 1024]⟩
abbrev S1024x1024 : Shape := ⟨2, ![1024, 1024]⟩
abbrev S1x1024x1024 : Shape := ⟨3, ![1, 1024, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8, .i32⟩
  | .hbm, ⟨2, _⟩ => ⟨S8x1024x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x1024_S8x1x1024 : S8x1024.ShapeCasts S8x1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .f32 = 32 ∨ (Rect.block (s := S8x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x1024.size a
  hwx0_3 : ∀ i : grid0.Coords, EltTy.bits .f32 = 32 ∨ (Rect.block (s := S8x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .f32 = 32 ∨ (Rect.block (s := S8192x1024) S1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8 : Shape := ⟨1, ![8]⟩
abbrev S8x1024x1024 : Shape := ⟨3, ![8, 1024, 1024]⟩
abbrev S8x1024 : Shape := ⟨2, ![8, 1024]⟩
abbrev S8x1x1024 : Shape := ⟨3, ![8, 1, 1024]⟩
abbrev S_ : Shape := ⟨0, ![]⟩
abbrev S8x1024x1 : Shape := ⟨3, ![8, 1024, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8, .i32⟩
  | .hbm, ⟨2, _⟩ => ⟨S8x1024x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024x1024, .f32⟩
  | .hbm, ⟨7, _⟩ => ⟨S8x1024x1024, .f32⟩
  | .hbm, ⟨8, _⟩ => ⟨S8x1x1024, .f32⟩
  | .hbm, ⟨9, _⟩ => ⟨S8x1024x1024, .f32⟩
  | .hbm, ⟨10, _⟩ => ⟨S8x1024x1024, .f32⟩
  | .hbm, ⟨11, _⟩ => ⟨S_, .f32⟩
  | .hbm, ⟨12, _⟩ => ⟨S8x1024x1024, .f32⟩
  | .hbm, ⟨13, _⟩ => ⟨S8x1024x1024, .f32⟩
  | .hbm, ⟨14, _⟩ => ⟨S_, .f32⟩
  | .hbm, ⟨15, _⟩ => ⟨S8x1024, .f32⟩
  | .hbm, ⟨16, _⟩ => ⟨S8x1024x1, .f32⟩
  | .hbm, ⟨17, _⟩ => ⟨S_, .f32⟩
  | .hbm, ⟨18, _⟩ => ⟨S8x1024x1, .f32⟩
  | .hbm, ⟨19, _⟩ => ⟨S8x1024x1, .f32⟩
  | .hbm, ⟨20, _⟩ => ⟨S_, .i32⟩
  | .hbm, ⟨21, _⟩ => ⟨S_, .f32⟩
  | .hbm, ⟨22, _⟩ => ⟨S8x1024, .f32⟩
  | .hbm, ⟨23, _⟩ => ⟨S8x1024x1, .f32⟩
  | .hbm, ⟨24, _⟩ => ⟨S_, .f32⟩
  | .hbm, ⟨25, _⟩ => ⟨S8x1024x1, .f32⟩
  | .hbm, ⟨26, _⟩ => ⟨S8x1024x1, .f32⟩
  | .hbm, ⟨27, _⟩ => ⟨S8x1024x1024, .f32⟩
  | .hbm, ⟨28, _⟩ => ⟨S8x1024x1024, .f32⟩
  | .hbm, ⟨29, _⟩ => ⟨S8x1024x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x1024, .f32⟩
  | .hbm, ⟨35, _⟩ => ⟨S8x1024x1, .f32⟩
  | .hbm, ⟨36, _⟩ => ⟨S8x1024x1, .f32⟩
  | .hbm, ⟨37, _⟩ => ⟨S8x1024x1, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S8x1024x1, .f32⟩
  | .hbm, ⟨43, _⟩ => ⟨S8x1024x1, .f32⟩
  | .hbm, ⟨44, _⟩ => ⟨S8x1024x1024, .f32⟩
  | .hbm, ⟨45, _⟩ => ⟨S8x1024x1024, .f32⟩
  | .hbm, ⟨46, _⟩ => ⟨S_, .f32⟩
  | .hbm, ⟨47, _⟩ => ⟨S8x1024x1, .f32⟩
  | .hbm, ⟨48, _⟩ => ⟨S8x1024x1, .f32⟩
  | .hbm, ⟨49, _⟩ => ⟨S8x1024x1, .f32⟩
  | .hbm, ⟨50, _⟩ => ⟨S8x1024x1024, .f32⟩
  | .hbm, ⟨51, _⟩ => ⟨S8x1024x1024, .f32⟩
  | .hbm, ⟨52, _⟩ => ⟨S8x1x1024, .f32⟩
  | .hbm, ⟨53, _⟩ => ⟨S8x1024x1024, .f32⟩
  | .hbm, ⟨54, _⟩ => ⟨S8x1024x1024, .f32⟩
  | .hbm, ⟨55, _⟩ => ⟨S8x1x1024, .f32⟩
  | .hbm, ⟨56, _⟩ => ⟨S8x1024x1024, .f32⟩
  | .hbm, ⟨57, _⟩ => ⟨S8x1024x1024, .f32⟩
  | .hbm, ⟨58, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call1_cst : Ref sig .tc := ⟨.hbm, 21, rfl⟩
abbrev main_call1_v0 : Ref sig .tc := ⟨.hbm, 22, rfl⟩
abbrev main_call1_v1 : Ref sig .tc := ⟨.hbm, 23, rfl⟩
abbrev main_call1_cst_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_cst_1 : Ref sig .tc := ⟨.hbm, 31, rfl⟩
abbrev main_call1_v8 : Ref sig .tc := ⟨.hbm, 32, rfl⟩
abbrev main_call1_cst_2 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_v12 : Ref sig .tc := ⟨.hbm, 37, rfl⟩
abbrev main_call1_cst_3 : Ref sig .tc := ⟨.hbm, 38, rfl⟩
abbrev main_call1_v13 : Ref sig .tc := ⟨.hbm, 39, rfl⟩
abbrev main_call1_cst_4 : Ref sig .tc := ⟨.hbm, 40, rfl⟩
abbrev main_call1_call0_v0 : Ref sig .tc := ⟨.hbm, 41, rfl⟩
abbrev main_call1_call0_v1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩

abbrev nD : Nat := 1
abbrev τ : Topo := Topo.v7x

variable {F : FTy → Type} [FloatOps F]

class Facts₀ : Prop where
  shapeCasts_S8192x1024_S8x1024x1024 : S8192x1024.ShapeCasts S8x1024x1024
  bcast_S8x1024_S8x1x1024_0_2 : S8x1024.BroadcastsInDim S8x1x1024 (![0, 2] : Fin 2 → Fin S8x1x1024.rank)
  bcast_S8x1x1024_S8x1024x1024_0_1_2 : S8x1x1024.BroadcastsInDim S8x1024x1024 (![0, 1, 2] : Fin 3 → Fin S8x1024x1024.rank)
  bcast_S_S8x1024x1024 : S_.BroadcastsInDim S8x1024x1024 (![] : Fin 0 → Fin S8x1024x1024.rank)
  reducesTo_S8x1024x1024_S8x1024_d2 : S8x1024x1024.ReducesTo [2] S8x1024
  h_S_ : 0 < S_.numel
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x1024_0_1_2 : S8x1024x1.BroadcastsInDim S8x1024x1024 (![0, 1, 2] : Fin 3 → Fin S8x1024x1024.rank)
  shapeCasts_S8x1024x1024_S8192x1024 : S8x1024x1024.ShapeCasts S8192x1024
  dot_S8x1024x1024_S8x1024x1024_S8x1024x1024_2_1_1_2_0_0_wf : DotDims.WF S8x1024x1024 S8x1024x1024 S8x1024x1024 [2] [1] [1] [2] [0] [0]

variable [Facts₀]

def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf

class Facts : Prop extends Facts₀ where

variable [Facts]
-- ==== Proof.Spec.lean ====
/-
  The function both programs compute, written once over the extended reals.

  There are 8 experts, each owning 1024 consecutive token rows of the 8192 x 1024 input: token slot `c` of expert `e`
  is row `e * 1024 + c`. Expert `e` applies its own dense layer to its rows — the product with its 1024 x 1024 weight
  matrix plus its bias row —, clamps the result below at zero, and normalises every row of the result to mean zero
  and unit variance (with a small number added to the variance before the inverse square root), then scales each
  column by the expert's gain and adds the expert's offset.

  The two programs differ only in how a row's mean and variance are obtained from the row `h` of 1024 clamped
  activations. One multiplies the two sums `∑ h` and `∑ h²` by the constant 2^-10 and takes the variance as
  `E[h²] - (E[h])²` (`normMoments`); the other divides `∑ h` by 1024, subtracts that mean from the row, and divides
  the sum of the squared differences by `1024 - 0`, guarded by the test that this divisor is positive
  (`normCentred`). Module RowLaw proves the two row functions equal whenever the row consists of real numbers.
-/
import Idealize.ShloMosaic.PureOps.Ideal
import Idealize.ShloMosaic.Lib.ValueIdx

noncomputable section

open scoped BigOperators

namespace Cert.ExpertNorm

open Idealize.ShloMosaic Idealize.ShloMosaic.ValueIdx

/-- Tokens by features. -/
abbrev Tok : Shape := ⟨2, ![8192, 1024]⟩
/-- Experts by input features by output features. -/
abbrev Wts : Shape := ⟨3, ![8, 1024, 1024]⟩
/-- Experts by output features: a bias, a gain or an offset per expert. -/
abbrev Par : Shape := ⟨2, ![8, 1024]⟩

/-- Token slot `c` of expert `e` is row `e * 1024 + c` of the input. -/
def tok (e : Fin 8) (c : Fin 1024) : Fin 8192 := ⟨e.val * 1024 + c.val, by omega⟩
/-- The expert that owns row `r`. -/
def expertOf (r : Fin 8192) : Fin 8 := ⟨r.val / 1024, by omega⟩
/-- The slot of row `r` within its expert's rows. -/
def slotOf (r : Fin 8192) : Fin 1024 := ⟨r.val % 1024, by omega⟩

theorem tok_expertOf_slotOf (r : Fin 8192) : tok (expertOf r) (slotOf r) = r :=
  Fin.ext (by show r.val / 1024 * 1024 + r.val % 1024 = r.val; omega)

/-- The number zero as the programs spell it. -/
abbrev zeroW : EReal := Ideal.ofBits .f32 0x00000000#32
/-- The small number added to the variance (the single-precision number nearest 1e-5), never evaluated. -/
abbrev epsW : EReal := Ideal.ofBits .f32 0x3727C5AC#32
/-- 2^-10 = 1/1024, by which the moment form multiplies its sums. -/
abbrev invW : EReal := Ideal.ofBits .f32 0x3A800000#32
/-- 1024, by which the centred form divides its sums. -/
abbrev cntW : EReal := Ideal.ofBits .f32 0x44800000#32
/-- The word returned where the centred form's divisor is not positive (never reached). -/
abbrev nanW : EReal := Ideal.ofBits .f32 0x7FC00000#32

/-- The clamped dense layer: entry `f` of the activation row of token slot `c` of expert `e`. -/
def act (x : Tok.Idx → EReal) (W : Wts.Idx → EReal) (b : Par.Idx → EReal) (e : Fin 8) (c : Fin 1024) (f : Fin 1024) : EReal :=
  max ((∑ d : Fin 1024, x (ix2 (tok e c) d) * W (ix3 e d f)) + b (ix2 e f)) zeroW

/-- A row normalised through its two raw moments: mean `(∑ h) * 2^-10`, variance `(∑ h²) * 2^-10 - mean²`. -/
def normMoments (h g o : Fin 1024 → EReal) (f : Fin 1024) : EReal :=
  (h f - (∑ k, h k) * invW)
      * Ideal.rsqrt (((∑ k, h k * h k) * invW - ((∑ k, h k) * invW) * ((∑ k, h k) * invW)) + epsW) * g f + o f

/-- The centred form's mean: the sum, started from zero, divided by 1024. -/
def meanC (h : Fin 1024 → EReal) : EReal := Ideal.div (zeroW + ∑ k, h k) cntW

/-- The centred form's divisor: 1024 minus the integer zero read as a number. -/
def dofC : EReal := cntW - (((0#32 : BitVec 32).toInt : ℝ) : EReal)

/-- The centred form's variance: the mean of the squared differences from the mean, where the divisor is positive. -/
def varC (h : Fin 1024 → EReal) : EReal :=
  Scalar.select (Ideal.cmp .ogt dofC zeroW) (Ideal.div (zeroW + ∑ k, (h k - meanC h) * (h k - meanC h)) dofC) nanW

/-- A row normalised by centring it first. -/
def normCentred (h g o : Fin 1024 → EReal) (f : Fin 1024) : EReal :=
  (h f - meanC h) * Ideal.rsqrt (varC h + epsW) * g f + o f

/-- The whole result in the moment form, index by index. -/
def outMoments (x : Tok.Idx → EReal) (W : Wts.Idx → EReal) (b g o : Par.Idx → EReal) : Tok.Idx → EReal := fun i =>
  normMoments (act x W b (expertOf (i 0)) (slotOf (i 0))) (fun f => g (ix2 (expertOf (i 0)) f)) (fun f => o (ix2 (expertOf (i 0)) f)) (i 1)

/-- The whole result in the centred form, index by index. -/
def outCentred (x : Tok.Idx → EReal) (W : Wts.Idx → EReal) (b g o : Par.Idx → EReal) : Tok.Idx → EReal := fun i =>
  normCentred (act x W b (expertOf (i 0)) (slotOf (i 0))) (fun f => g (ix2 (expertOf (i 0)) f)) (fun f => o (ix2 (expertOf (i 0)) f)) (i 1)

end Cert.ExpertNorm

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.BlockValue.lean ====
/-
  One block of the kernel's result, read entry by entry.

  At one grid point the body holds a block of 1024 token rows (all the rows of one expert), that expert's weight
  matrix, and the expert's bias, gain and offset rows. It forms the clamped dense layer `H` of the block — entry
  `(p, q)` is `max (∑ d, X (p, d) * W (d, q) + bias q) 0` —, then for every row `p` the two sums `∑ k, H (p, k)` and
  `∑ k, H (p, k)²`, kept as one-column matrices, from which the row's mean and variance follow by the constant
  `2^-10`; each entry of the row is centred, multiplied by the inverse square root of the variance plus a small
  number, scaled by the gain of its column and shifted by the offset of its column.

  Everything except the matrix product, the two row sums and the re-layings (a vector as a column, a column repeated
  along the rows, a row repeated down the columns) acts entry by entry, so the value at `(p, q)` is the row
  function `normMoments` of the specification applied to row `p` of `H`.
-/
import proofs.«105201_j7387343749155_2_alg».proof.Proof.Gen.KernelIdeal.Value
import proofs.«105201_j7387343749155_2_alg».proof.Proof.Spec
import proofs.«105201_j7387343749155_2_alg».proof.Proof.LibKeepdims
import proofs.«105201_j7387343749155_2_alg».proof.Proof.LibMatProd
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.ExpertNorm

/-! ## The named intermediate values of the body -/

/-- The clamped dense layer of the block: product with the weights, plus the bias row, clamped below at zero. -/
def dense (P0 : Vec Ideal S1024x1024 .f32) (P1 : Vec Ideal S1x1024x1024 .f32) (P2 : Vec Ideal S1x1x1024 .f32) :
    FVec Ideal S1024x1024 .f32 :=
  maximumf
    (addf
      (matmul dot_S1024x1024_S1024x1024_S1024x1024_1_0_0_1_n_n none (truncf .bf16 P0 bitsLt_bf16_f32)
        (truncf .bf16 (shapeCast S1024x1024 P1 shapeCasts_S1x1024x1024_S1024x1024) bitsLt_bf16_f32)
        (constant S1024x1024 .f32 0x00000000#32))
      (broadcastTo S1024x1024 (shapeCast S1x1024 P2 shapeCasts_S1x1x1024_S1x1024) broadcasts_S1x1024_S1024x1024))
    (broadcast S1024x1024 (Scalar.ofBits .f32 0x00000000#32))

/-- The sums of the rows of a block, as a one-column matrix. -/
def rowSums (v : FVec Ideal S1024x1024 .f32) : FVec Ideal S1024x1 .f32 :=
  shapeCast S1024x1 (multiReduction .add [1] S1024 v 0x00000000#32 reduces_S1024x1024_S1024 (.inl rfl) rfl) shapeCasts_S1024_S1024x1

/-- The means of the rows: the row sums times 2^-10. -/
def means (H : FVec Ideal S1024x1024 .f32) : FVec Ideal S1024x1 .f32 :=
  mulf (rowSums H) (broadcast S1024x1 (Scalar.ofBits .f32 0x3A800000#32))

/-- The variances of the rows: the mean of the squares minus the square of the mean. -/
def variances (H : FVec Ideal S1024x1024 .f32) : FVec Ideal S1024x1 .f32 :=
  subf (mulf (rowSums (mulf H H)) (broadcast S1024x1 (Scalar.ofBits .f32 0x3A800000#32))) (mulf (means H) (means H))

/-- The inverse square roots of the variances plus the small number. -/
def invDevs (H : FVec Ideal S1024x1024 .f32) : FVec Ideal S1024x1 .f32 :=
  rsqrt (addf (variances H) (broadcast S1024x1 (Scalar.ofBits .f32 0x3727C5AC#32)))

/-- A parameter row repeated down the 1024 rows of the block. -/
def rowRepeated (P : Vec Ideal S1x1x1024 .f32) : FVec Ideal S1024x1024 .f32 :=
  broadcastTo S1024x1024 (shapeCast S1x1024 P shapeCasts_S1x1x1024_S1x1024) broadcasts_S1x1024_S1024x1024

/-- The body's value before the offset is added, as the composition of the named values. -/
theorem pay2_eq (P0 : Vec Ideal S1024x1024 .f32) (P1 : Vec Ideal S1x1024x1024 .f32) (P2 P3 : Vec Ideal S1x1x1024 .f32) :
    k0_pay2 (F := Ideal) P0 P1 P2 P3
      = mulf (mulf (subf (dense P0 P1 P2) (broadcastTo S1024x1024 (means (dense P0 P1 P2)) broadcasts_S1024x1_S1024x1024))
            (broadcastTo S1024x1024 (invDevs (dense P0 P1 P2)) broadcasts_S1024x1_S1024x1024))
          (rowRepeated P3) := rfl

/-! ## Each named value at an entry -/

/-- A parameter row repeated down the rows reads, at `(p, q)`, the row's entry `q`. -/
theorem rowRepeated_apply (P : Vec Ideal S1x1x1024 .f32) (p q : Fin 1024) :
    rowRepeated P (ix2 p q) = P (ix3 (0 : Fin 1) (0 : Fin 1) q) := by
  unfold rowRepeated
  refine (broadcastTo_1b_ab_apply _ _ p q).trans ?_
  exact shapeCast_1ab_ab_apply P _ (0 : Fin 1) q

/-- The row sums at `(p, u)`: the sum of row `p`. -/
theorem rowSums_apply (v : FVec Ideal S1024x1024 .f32) (p : Fin 1024) (u : Fin 1) :
    rowSums v (ix2 p u) = ∑ k : Fin 1024, v (ix2 p k) := by
  unfold rowSums
  refine (Cert.Keepdims.shapeCast_a_a1_apply _ _ p u).trans ?_
  refine (Ideal.multiReduction_add_single v 0x00000000#32 reduces_S1024x1024_S1024 (.inl rfl) rfl (ix1 p)).trans ?_
  refine Finset.sum_congr rfl fun k _ => congrArg v ?_
  funext a
  apply Fin.ext
  match a with
  | ⟨0, _⟩ => rfl
  | ⟨1, _⟩ => rfl

theorem means_apply (H : FVec Ideal S1024x1024 .f32) (p : Fin 1024) (u : Fin 1) :
    means H (ix2 p u) = (∑ k : Fin 1024, H (ix2 p k)) * invW := by
  unfold means
  rw [mulf_apply, rowSums_apply]
  rfl

theorem variances_apply (H : FVec Ideal S1024x1024 .f32) (p : Fin 1024) (u : Fin 1) :
    variances H (ix2 p u)
      = (∑ k : Fin 1024, H (ix2 p k) * H (ix2 p k)) * invW
        - ((∑ k : Fin 1024, H (ix2 p k)) * invW) * ((∑ k : Fin 1024, H (ix2 p k)) * invW) := by
  unfold variances
  rw [subf_apply, mulf_apply, mulf_apply, rowSums_apply, means_apply]
  rfl

theorem invDevs_apply (H : FVec Ideal S1024x1024 .f32) (p : Fin 1024) (u : Fin 1) :
    invDevs H (ix2 p u)
      = Ideal.rsqrt (((∑ k : Fin 1024, H (ix2 p k) * H (ix2 p k)) * invW
          - ((∑ k : Fin 1024, H (ix2 p k)) * invW) * ((∑ k : Fin 1024, H (ix2 p k)) * invW)) + epsW) := by
  unfold invDevs
  show Ideal.rsqrt (addf (variances H) (broadcast S1024x1 (Scalar.ofBits .f32 0x3727C5AC#32)) (ix2 p u)) = _
  rw [addf_apply, variances_apply]
  rfl

/-- The clamped dense layer at `(p, q)`. -/
theorem dense_apply (P0 : Vec Ideal S1024x1024 .f32) (P1 : Vec Ideal S1x1024x1024 .f32) (P2 : Vec Ideal S1x1x1024 .f32)
    (p q : Fin 1024) :
    dense P0 P1 P2 (ix2 p q)
      = max ((∑ d : Fin 1024, P0 (ix2 p d) * P1 (ix3 (0 : Fin 1) d q)) + P2 (ix3 (0 : Fin 1) (0 : Fin 1) q)) zeroW := by
  unfold dense
  rw [maximumf_apply, addf_apply]
  have e1 : (matmul dot_S1024x1024_S1024x1024_S1024x1024_1_0_0_1_n_n none (truncf .bf16 P0 bitsLt_bf16_f32)
        (truncf .bf16 (shapeCast S1024x1024 P1 shapeCasts_S1x1024x1024_S1024x1024) bitsLt_bf16_f32)
        (constant S1024x1024 .f32 0x00000000#32) : FVec Ideal S1024x1024 .f32) (ix2 p q)
      = ∑ d : Fin 1024, P0 (ix2 p d) * P1 (ix3 (0 : Fin 1) d q) := by
    refine (Cert.MatProd.matmul_plain_zero_apply (M := 1024) (K := 1024) (N := 1024) none
      (truncf .bf16 P0 bitsLt_bf16_f32)
      (truncf .bf16 (shapeCast S1024x1024 P1 shapeCasts_S1x1024x1024_S1024x1024) bitsLt_bf16_f32) p q).trans ?_
    refine Finset.sum_congr rfl fun d _ => ?_
    show P0 (ix2 p d) * shapeCast S1024x1024 P1 shapeCasts_S1x1024x1024_S1024x1024 (ix2 d q) = _
    rw [shapeCast_1ab_ab_apply P1 _ d q]
  have e2 : broadcastTo S1024x1024 (shapeCast S1x1024 P2 shapeCasts_S1x1x1024_S1x1024) broadcasts_S1x1024_S1024x1024 (ix2 p q)
      = P2 (ix3 (0 : Fin 1) (0 : Fin 1) q) := rowRepeated_apply P2 p q
  rw [e1, e2]
  rfl

/-! ## The block's entry is the row function of the specification -/

/-- Row `p` of the clamped dense layer of the block, as a function of the column. -/
def denseRow (P0 : Vec Ideal S1024x1024 .f32) (P1 : Vec Ideal S1x1024x1024 .f32) (P2 : Vec Ideal S1x1x1024 .f32)
    (p : Fin 1024) : Fin 1024 → EReal :=
  fun f => max ((∑ d : Fin 1024, P0 (ix2 p d) * P1 (ix3 (0 : Fin 1) d f)) + P2 (ix3 (0 : Fin 1) (0 : Fin 1) f)) zeroW

/-- WHAT THE BODY LEAVES AT `(p, q)` of its output block: the moment-form normalisation of row `p` of the clamped dense
    layer, with the gain and offset rows, at column `q`. -/
theorem block_apply (P0 : Vec Ideal S1024x1024 .f32) (P1 : Vec Ideal S1x1024x1024 .f32) (P2 P3 P4 : Vec Ideal S1x1x1024 .f32)
    (p q : Fin 1024) :
    Cert.KernelIdeal.Value.E5 (F := Ideal) P0 P1 P2 P3 P4 (ix2 p q)
      = normMoments (denseRow P0 P1 P2 p) (fun f => P3 (ix3 (0 : Fin 1) (0 : Fin 1) f))
          (fun f => P4 (ix3 (0 : Fin 1) (0 : Fin 1) f)) q := by
  have hi0 : Cert.KernelIdeal.Value.ix5_0 (ix2 p q) = ix2 p q := by
    funext a; apply Fin.ext
    match a with
    | ⟨0, _⟩ => rfl
    | ⟨1, _⟩ => rfl
  have hi1 : Cert.KernelIdeal.Value.ix5_1 (ix2 p q) = ix3 (0 : Fin 1) (0 : Fin 1) q := by
    funext a; apply Fin.ext
    match a with
    | ⟨0, _⟩ => rfl
    | ⟨1, _⟩ => rfl
    | ⟨2, _⟩ => rfl
  show k0_pay2 (F := Ideal) P0 P1 P2 P3 (Cert.KernelIdeal.Value.ix5_0 (ix2 p q)) + P4 (Cert.KernelIdeal.Value.ix5_1 (ix2 p q)) = _
  rw [hi0, hi1, pay2_eq, mulf_apply, mulf_apply, subf_apply,
    Cert.Keepdims.broadcastTo_a1_ab_apply (means (dense P0 P1 P2)) broadcasts_S1024x1_S1024x1024 p q,
    Cert.Keepdims.broadcastTo_a1_ab_apply (invDevs (dense P0 P1 P2)) broadcasts_S1024x1_S1024x1024 p q,
    means_apply, invDevs_apply, rowRepeated_apply]
  have hrow : ∀ k : Fin 1024, dense P0 P1 P2 (ix2 p k) = denseRow P0 P1 P2 p k := fun k => dense_apply P0 P1 P2 p k
  simp only [hrow]
  rfl

end Cert.KernelIdeal.BlockValue

end
-- ==== Proof.ArrayValue.lean ====
/-
  The kernel's result array as one function of its arguments.

  The grid has one point per expert. At the point of expert `e` the output window's block is rows `e * 1024 … e * 1024 +
  1023` of the result, the token window's block is the same rows of the input, the weight window's block is the
  expert's weight matrix, and the three parameter windows' blocks are row `e` of the bias, gain and offset arrays
  (each first viewed as an 8 x 1 x 1024 array, which keeps the row-major position). So what the point writes back is
  exactly the rows of `outMoments` that its block covers; the eight blocks are disjoint and fill the result, row `r`
  lying in the block of expert `r / 1024`; hence after the run the result array is `outMoments` of the arguments.
-/
import proofs.«105201_j7387343749155_2_alg».proof.Proof.BlockValue
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Idealize.ShloMosaic.ValueIdx Cert.ExpertNorm

variable (m : (ℓ : Loc nD τ sig) → Buf (Elt Ideal) ℓ) (ρ : Dev nD → PrngReg)

/-! ## Rows and experts -/

theorem expertOf_tok (e : Fin 8) (p : Fin 1024) : expertOf (tok e p) = e :=
  Fin.ext (by show (e.val * 1024 + p.val) / 1024 = e.val; omega)

theorem slotOf_tok (e : Fin 8) (p : Fin 1024) : slotOf (tok e p) = p :=
  Fin.ext (by show (e.val * 1024 + p.val) % 1024 = p.val; omega)

/-- The expert whose rows grid point `t` handles: the point's number. -/
def expertAt (t : Fin cfg0.N) : Fin 8 := ⟨t.val, by have h : cfg0.N = 8 := N_0; have := t.isLt; omega⟩

/-! ## A block's entry from the whole arrays -/

/-- If the five blocks a point holds are the rows of expert `e` of the token array, the expert's weight matrix and row
    `e` of the three parameter arrays, then entry `(p, q)` of what the body leaves is entry `(e * 1024 + p, q)` of the
    moment-form result of the whole arrays. -/
theorem point_eq (X : Tok.Idx → EReal) (W : Wts.Idx → EReal) (B G O : Par.Idx → EReal)
    (P0 : Vec Ideal S1024x1024 .f32) (P1 : Vec Ideal S1x1024x1024 .f32) (P2 P3 P4 : Vec Ideal S1x1x1024 .f32) (e : Fin 8)
    (h0 : ∀ p d : Fin 1024, P0 (ix2 p d) = X (ix2 (tok e p) d))
    (h1 : ∀ d f : Fin 1024, P1 (ix3 (0 : Fin 1) d f) = W (ix3 e d f))
    (h2 : ∀ f : Fin 1024, P2 (ix3 (0 : Fin 1) (0 : Fin 1) f) = B (ix2 e f))
    (h3 : ∀ f : Fin 1024, P3 (ix3 (0 : Fin 1) (0 : Fin 1) f) = G (ix2 e f))
    (h4 : ∀ f : Fin 1024, P4 (ix3 (0 : Fin 1) (0 : Fin 1) f) = O (ix2 e f))
    (p q : Fin 1024) :
    Cert.KernelIdeal.Value.E5 (F := Ideal) P0 P1 P2 P3 P4 (ix2 p q) = outMoments X W B G O (ix2 (tok e p) q) := by
  rw [BlockValue.block_apply]
  show _ = normMoments (act X W B (expertOf (tok e p)) (slotOf (tok e p))) (fun f => G (ix2 (expertOf (tok e p)) f))
    (fun f => O (ix2 (expertOf (tok e p)) f)) q
  rw [expertOf_tok, slotOf_tok]
  have hd : BlockValue.denseRow P0 P1 P2 p = act X W B e p := by
    funext f
    unfold BlockValue.denseRow act
    simp only [h0, h1, h2]
  rw [hd]
  simp only [h3, h4]

/-! ## The arrays the region finds -/

/-- A parameter array viewed as 8 x 1 x 1024 reads, at `(e, 0, f)`, its entry `(e, f)`. -/
theorem param3_apply (x : S8x1024.Idx → EReal) (h : S8x1024.ShapeCasts S8x1x1024) (e : Fin 8) (f : Fin 1024) :
    shapeCast S8x1x1024 x h (ix3 e (0 : Fin 1) f) = x (ix2 e f) :=
  shapeCast_apply x h _ _ (by
    rw [Shape.rowMajor_val_three, Shape.rowMajor_val_two]
    show e.val * 1024 + f.val = (e.val * 1 + 0) * 1024 + f.val
    omega)

/-- The bias array as the region finds it: the argument viewed as 8 x 1 x 1024. -/
theorem V_bias (c : Dev nD) :
    (V m c main_v0 : S8x1x1024.Idx → EReal) = shapeCast S8x1x1024 (m ((c : Thread nD τ).loc main_arg3)) shapeCasts_S8x1024_S8x1x1024 := by
  dsimp only [Gen.V, Gen.hostOps0]; after_results; rfl

/-- The gain array as the region finds it. -/
theorem V_gain (c : Dev nD) :
    (V m c main_v1 : S8x1x1024.Idx → EReal) = shapeCast S8x1x1024 (m ((c : Thread nD τ).loc main_arg4)) shapeCasts_S8x1024_S8x1x1024 := by
  dsimp only [Gen.V, Gen.hostOps0]; after_results; rfl

/-- The offset array as the region finds it. -/
theorem V_offset (c : Dev nD) :
    (V m c main_v2 : S8x1x1024.Idx → EReal) = shapeCast S8x1x1024 (m ((c : Thread nD τ).loc main_arg5)) shapeCasts_S8x1024_S8x1x1024 := by
  dsimp only [Gen.V, Gen.hostOps0]; after_results; rfl

/-! ## The index maps, decided once over the grid -/

theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 2) = t.val ∧ win0_5.index t (1 : Fin 2) = 0 :=
  (by decide +kernel : ∀ t : Fin grid0.N, _)

/-! ## Each window's block at a point, read from the arguments -/

/-- The token window's block at point `t`: rows of expert `t` of the token array. -/
theorem tokens_apply (c : Dev nD) (t : Fin cfg0.N) (p d : Fin 1024) :
    (iblk m c 0 t : Vec Ideal S1024x1024 .f32) (ix2 p d)
      = (m ((c : Thread nD τ).loc main_arg0) : Tok.Idx → EReal) (ix2 (tok (expertAt t) p) d) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 1024 + 1 * d.val = d.val; rw [e1]; omega

/-- The weight window's block at point `t`: expert `t`'s weight matrix. -/
theorem weights_apply (c : Dev nD) (t : Fin cfg0.N) (d f : Fin 1024) :
    (iblk m c 1 t : Vec Ideal S1x1024x1024 .f32) (ix3 (0 : Fin 1) d f)
      = (m ((c : Thread nD τ).loc main_arg2) : Wts.Idx → EReal) (ix3 (expertAt t) d f) := by
  obtain ⟨-, -, e0, e1, e2, -⟩ := idx_facts t
  unfold iblk
  rw [View.read_apply]
  show V m c main_arg2 _ = _
  rw [V_main_arg2]
  congr 1
  funext a
  apply Fin.ext
  match a with
  | ⟨0, _⟩ => show win0_1.index t (0 : Fin 3) * 1 + 1 * 0 = t.val; rw [e0]; omega
  | ⟨1, _⟩ => show win0_1.index t (1 : Fin 3) * 1024 + 1 * d.val = d.val; rw [e1]; omega
  | ⟨2, _⟩ => show win0_1.index t (2 : Fin 3) * 1024 + 1 * f.val = f.val; rw [e2]; omega

/-- The bias window's block at point `t`: row `t` of the bias array. -/
theorem bias_apply (c : Dev nD) (t : Fin cfg0.N) (f : Fin 1024) :
    (iblk m c 2 t : Vec Ideal S1x1x1024 .f32) (ix3 (0 : Fin 1) (0 : Fin 1) f)
      = (m ((c : Thread nD τ).loc main_arg3) : Par.Idx → EReal) (ix2 (expertAt t) f) := by
  obtain ⟨-, -, -, -, -, e0, e1, e2, -⟩ := idx_facts t
  unfold iblk
  rw [View.read_apply]
  show V m c main_v0 _ = _
  have hj : (((cfg0.win 2).blk t).view.emb (ix3 (0 : Fin 1) (0 : Fin 1) f) : S8x1x1024.Idx) = ix3 (expertAt t) (0 : Fin 1) f := by
    funext a
    apply Fin.ext
    match a with
    | ⟨0, _⟩ => show win0_2.index t (0 : Fin 3) * 1 + 1 * 0 = t.val; rw [e0]; omega
    | ⟨1, _⟩ => show win0_2.index t (1 : Fin 3) * 1 + 1 * 0 = 0; rw [e1]
    | ⟨2, _⟩ => show win0_2.index t (2 : Fin 3) * 1024 + 1 * f.val = f.val; rw [e2]; omega
  rw [hj, V_bias]
  exact param3_apply _ _ _ _

/-- The gain window's block at point `t`: row `t` of the gain array. -/
theorem gain_apply (c : Dev nD) (t : Fin cfg0.N) (f : Fin 1024) :
    (iblk m c 3 t : Vec Ideal S1x1x1024 .f32) (ix3 (0 : Fin 1) (0 : Fin 1) f)
      = (m ((c : Thread nD τ).loc main_arg4) : Par.Idx → EReal) (ix2 (expertAt t) f) := by
  obtain ⟨-, -, -, -, -, -, -, -, e0, e1, e2, -⟩ := idx_facts t
  unfold iblk
  rw [View.read_apply]
  show V m c main_v1 _ = _
  have hj : (((cfg0.win 3).blk t).view.emb (ix3 (0 : Fin 1) (0 : Fin 1) f) : S8x1x1024.Idx) = ix3 (expertAt t) (0 : Fin 1) f := by
    funext a
    apply Fin.ext
    match a with
    | ⟨0, _⟩ => show win0_3.index t (0 : Fin 3) * 1 + 1 * 0 = t.val; rw [e0]; omega
    | ⟨1, _⟩ => show win0_3.index t (1 : Fin 3) * 1 + 1 * 0 = 0; rw [e1]
    | ⟨2, _⟩ => show win0_3.index t (2 : Fin 3) * 1024 + 1 * f.val = f.val; rw [e2]; omega
  rw [hj, V_gain]
  exact param3_apply _ _ _ _

/-- The offset window's block at point `t`: row `t` of the offset array. -/
theorem offset_apply (c : Dev nD) (t : Fin cfg0.N) (f : Fin 1024) :
    (iblk m c 4 t : Vec Ideal S1x1x1024 .f32) (ix3 (0 : Fin 1) (0 : Fin 1) f)
      = (m ((c : Thread nD τ).loc main_arg5) : Par.Idx → EReal) (ix2 (expertAt t) f) := by
  obtain ⟨-, -, -, -, -, -, -, -, -, -, -, e0, e1, e2, -⟩ := idx_facts t
  unfold iblk
  rw [View.read_apply]
  show V m c main_v2 _ = _
  have hj : (((cfg0.win 4).blk t).view.emb (ix3 (0 : Fin 1) (0 : Fin 1) f) : S8x1x1024.Idx) = ix3 (expertAt t) (0 : Fin 1) f := by
    funext a
    apply Fin.ext
    match a with
    | ⟨0, _⟩ => show win0_4.index t (0 : Fin 3) * 1 + 1 * 0 = t.val; rw [e0]; omega
    | ⟨1, _⟩ => show win0_4.index t (1 : Fin 3) * 1 + 1 * 0 = 0; rw [e1]
    | ⟨2, _⟩ => show win0_4.index t (2 : Fin 3) * 1024 + 1 * f.val = f.val; rw [e2]; omega
  rw [hj, V_offset]
  exact param3_apply _ _ _ _

/-! ## What a point writes back, the cover, and the run -/

/-- The moment-form result of the argument arrays as launched. -/
abbrev result (c : Dev nD) : Buf (Elt Ideal) ((c : Thread nD τ).loc main_v3) :=
  outMoments (m ((c : Thread nD τ).loc main_arg0)) (m ((c : Thread nD τ).loc main_arg2)) (m ((c : Thread nD τ).loc main_arg3))
    (m ((c : Thread nD τ).loc main_arg4)) (m ((c : Thread nD τ).loc main_arg5))

theorem hz2 : (![0, 0] : Fin 2 → Nat) = fun _ => 0 := funext fun a => by fin_cases a <;> rfl
theorem hz3 : (![0, 0, 0] : Fin 3 → Nat) = fun _ => 0 := funext fun a => by fin_cases a <;> rfl

/-- WHAT POINT `t` WRITES BACK is block `t` of the moment-form result. -/
theorem flushed_eq (c : Dev nD) (t : Fin cfg0.N) :
    (dats m 0 c).flushed 5 t = ((cfg0.win 5).blk t).view.read (Elt Ideal) (result m c) := by
  obtain ⟨-, -, -, -, -, -, -, -, -, -, -, -, -, -, e0, e1⟩ := idx_facts t
  rw [Value.flushed5]
  funext j
  show out0_5 (iblk m c 0 t) (iblk m c 1 t) (iblk m c 2 t) (iblk m c 3 t) (iblk m c 4 t) j
      = result m c (((cfg0.win 5).blk t).view.emb j)
  unfold out0_5
  simp only [View.ld_unit_zero (S := S1024x1024) hz2, View.ld_unit_zero (S := S1x1024x1024) hz3,
    View.ld_unit_zero (S := S1x1x1024) hz3]
  refine (Value.canon5_eq (iblk m c 0 t) (iblk m c 1 t) (iblk m c 2 t) (iblk m c 3 t) (iblk m c 4 t) j).trans ?_
  have hj : j = (ix2 (j 0) (j 1) : S1024x1024.Idx) := by
    funext a
    match a with
    | ⟨0, _⟩ => rfl
    | ⟨1, _⟩ => rfl
  have hemb : (((cfg0.win 5).blk t).view.emb j : S8192x1024.Idx) = ix2 (tok (expertAt t) (j 0)) (j 1) := by
    funext a
    apply Fin.ext
    match a with
    | ⟨0, _⟩ => show win0_5.index t (0 : Fin 2) * 1024 + 1 * (j 0).val = t.val * 1024 + (j 0).val; rw [e0]; omega
    | ⟨1, _⟩ => show win0_5.index t (1 : Fin 2) * 1024 + 1 * (j 1).val = (j 1).val; rw [e1]; omega
  rw [hemb, hj]
  exact point_eq _ _ _ _ _ (iblk m c 0 t) (iblk m c 1 t) (iblk m c 2 t) (iblk m c 3 t) (iblk m c 4 t) (expertAt t)
    (tokens_apply m c t) (weights_apply m c t) (bias_apply m c t) (gain_apply m c t) (offset_apply m c t) (j 0) (j 1)

/-- An index of the result is in point `t`'s block iff each coordinate is in the block's range on its axis. -/
theorem mem_blk (t : Fin cfg0.N) (i : S8192x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v3).slice (win0_5.rect t)).set ↔ _
  rw [View.set_slice_whole, Rect.mem_set_unit]
  exact Iff.rfl

/-- Every index of the result lies in the block of the expert that owns its row. -/
theorem cover (i : S8192x1024.Idx) : ∃ t : Fin cfg0.N, (cfg0.win 5).flush t = true ∧ i ∈ ((cfg0.win 5).blk t).view.set := by
  have hN : cfg0.N = 8 := N_0
  have hi0 : (i 0).val < 8192 := (i 0).isLt
  have hi1 : (i 1).val < 1024 := (i 1).isLt
  refine ⟨⟨(i 0).val / 1024, by omega⟩, flush0_5 _, ?_⟩
  obtain ⟨-, -, -, -, -, -, -, -, -, -, -, -, -, -, e0, e1⟩ := idx_facts ⟨(i 0).val / 1024, by omega⟩
  rw [mem_blk]
  intro a
  match a with
  | ⟨0, _⟩ =>
    show win0_5.index _ (0 : Fin 2) * 1024 ≤ (i 0).val ∧ (i 0).val < win0_5.index _ (0 : Fin 2) * 1024 + 1024
    rw [e0]; show (i 0).val / 1024 * 1024 ≤ (i 0).val ∧ (i 0).val < (i 0).val / 1024 * 1024 + 1024; omega
  | ⟨1, _⟩ =>
    show win0_5.index _ (1 : Fin 2) * 1024 ≤ (i 1).val ∧ (i 1).val < win0_5.index _ (1 : Fin 2) * 1024 + 1024
    rw [e1]; omega

/-- THE RESULT ARRAY after the run is the moment-form result of the arguments. -/
theorem final (c : Dev nD) : (dats m 0 c).arrAt 5 cfg0.N = result m c :=
  (dats m 0 c).arrAt_eq_of_cover 5 (result m c) (fun t _ => flushed_eq m c t) cover

/-- The run, read: the result array at the moment-form result of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ArrayValue

end
-- ==== Proof.LibRealSum.lean ====
/-
  Finite sums of real numbers inside the extended reals.

  The extended reals are not a ring: a product does not distribute over a sum when an infinity meets a
  term of the other sign. Every law used by this certificate is therefore proved on the real numbers
  and carried to the extended reals through the coercion, which is additive and multiplicative on
  reals. This module holds the one general fact that makes that possible for sums of any finite length.
-/
import Mathlib

namespace LibRealSum

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end LibRealSum
-- ==== Proof.RowLaw.lean ====
/-
  The row law: the two ways of normalising a row agree on rows of real numbers.

  Both forms subtract a mean from the row and multiply by the inverse square root of a variance plus a
  small constant. The moment form takes the mean as `S * 2^-10` and the variance as
  `Q * 2^-10 - (S * 2^-10)^2`, where `S` is the sum of the row and `Q` the sum of its squares; the centred
  form takes the mean as `S / 1024` and the variance as the sum of the squared differences from that mean,
  divided by 1024. For a real row of length 1024 and `μ = S / 1024`,

      ∑ (h k - μ)^2 = Q - 2 μ S + 1024 μ^2 = Q - S^2 / 1024,

  so the two variances are the same real number. The extended reals are not a ring, so none of this is
  computed there: every quantity is first shown to be the coercion of a real expression, the identity is
  proved on the reals, and the coercion carries it back.

  The clamped dense layer of real arrays is real (a finite sum of products of reals, plus a real, clamped
  below at zero), so the two whole-array functions agree on real inputs.
-/
import proofs.«105201_j7387343749155_2_alg».proof.Proof.Spec
import proofs.«105201_j7387343749155_2_alg».proof.Proof.LibRealSum

noncomputable section

open scoped BigOperators

namespace Cert.ExpertNorm

open Idealize.ShloMosaic Idealize.ShloMosaic.ValueIdx

/-! ### The three constants that are evaluated -/

/-- The all-zero word denotes the number zero. -/
theorem zeroW_eq : zeroW = 0 := by
  show Ideal.ofBits .f32 0x00000000#32 = 0
  simp [Ideal.ofBits, Ideal.ieee]

/-- Sign 0, exponent field 117, mantissa 0: the number `2^(117-127) = 2^-10 = 1/1024`. -/
theorem invW_eq : invW = ((1 / 1024 : ℝ) : EReal) := by
  show Ideal.ofBits .f32 0x3A800000#32 = ((1 / 1024 : ℝ) : EReal)
  simp [Ideal.ofBits, Ideal.ieee, -EReal.coe_mul]; norm_num

/-- Sign 0, exponent field 137, mantissa 0: the number `2^(137-127) = 2^10 = 1024`. -/
theorem cntW_eq : cntW = ((1024 : ℝ) : EReal) := by
  show Ideal.ofBits .f32 0x44800000#32 = ((1024 : ℝ) : EReal)
  simp [Ideal.ofBits, Ideal.ieee, -EReal.coe_mul]; norm_num

/-! ### The identity on the reals -/

/-- The sum of the squared differences from any number `μ`, expanded. -/
private theorem sum_sq_sub (hr : Fin 1024 → ℝ) (μ : ℝ) :
    ∑ k, (hr k - μ) * (hr k - μ) = (∑ k, hr k * hr k) - 2 * μ * (∑ k, hr k) + 1024 * (μ * μ) := by
  have h : ∀ k, (hr k - μ) * (hr k - μ) = hr k * hr k - 2 * μ * hr k + μ * μ := fun k => by ring
  simp only [h]
  rw [Finset.sum_add_distrib, Finset.sum_sub_distrib, ← Finset.mul_sum, Finset.sum_const, Finset.card_univ,
    Fintype.card_fin, nsmul_eq_mul]
  norm_num

/-- The variance through the raw moments is the mean of the squared differences from the mean. -/
private theorem real_var (hr : Fin 1024 → ℝ) :
    (∑ k, hr k * hr k) * (1 / 1024) - ((∑ k, hr k) * (1 / 1024)) * ((∑ k, hr k) * (1 / 1024))
      = (∑ k, (hr k - (∑ k, hr k) * (1 / 1024)) * (hr k - (∑ k, hr k) * (1 / 1024))) * (1 / 1024) := by
  rw [sum_sq_sub]
  ring

/-! ### Carrying the quantities of the two forms to the reals -/

/-- A sum of coerced reals is the coercion of the real sum. -/
private theorem sum_coe (hr : Fin 1024 → ℝ) : (∑ k, ((hr k : ℝ) : EReal)) = ((∑ k, hr k : ℝ) : EReal) :=
  (LibRealSum.coe_sum Finset.univ hr).symm

/-- The moment form's mean of a real row. -/
private theorem meanM_eq (hr : Fin 1024 → ℝ) :
    (∑ k, ((hr k : ℝ) : EReal)) * invW = (((∑ k, hr k) * (1 / 1024) : ℝ) : EReal) := by
  rw [sum_coe, invW_eq, ← EReal.coe_mul]

/-- The moment form's mean of the squares of a real row. -/
private theorem sqM_eq (hr : Fin 1024 → ℝ) :
    (∑ k, ((hr k : ℝ) : EReal) * ((hr k : ℝ) : EReal)) * invW = (((∑ k, hr k * hr k) * (1 / 1024) : ℝ) : EReal) := by
  simp only [← EReal.coe_mul]
  rw [sum_coe (fun k => hr k * hr k), invW_eq, ← EReal.coe_mul]

/-- The centred form's mean of a real row: the same real number as the moment form's. -/
private theorem meanC_eq (hr : Fin 1024 → ℝ) :
    meanC (fun k => ((hr k : ℝ) : EReal)) = (((∑ k, hr k) * (1 / 1024) : ℝ) : EReal) := by
  rw [meanC, zeroW_eq, zero_add, cntW_eq, Ideal.div_coe (by norm_num : (1024 : ℝ) ≠ 0), sum_coe, ← EReal.coe_mul]

/-- The centred form's divisor is the number 1024. -/
private theorem dofC_eq : dofC = ((1024 : ℝ) : EReal) := by
  have h0 : (((0#32 : BitVec 32).toInt : ℝ) : EReal) = 0 := by
    have h : (0#32 : BitVec 32).toInt = 0 := by decide
    rw [h, Int.cast_zero, EReal.coe_zero]
  rw [dofC, cntW_eq, h0, sub_zero]

/-- The centred form's test "the divisor is positive" holds. -/
private theorem cmp_dofC : Ideal.cmp .ogt dofC zeroW = 1#1 := by
  have hpos : (0 : EReal) < ((1024 : ℝ) : EReal) := by
    have : ((0 : ℝ) : EReal) < ((1024 : ℝ) : EReal) := EReal.coe_lt_coe_iff.mpr (by norm_num)
    simpa using this
  rw [dofC_eq, zeroW_eq]
  simp only [Ideal.cmp, hpos, decide_true]
  rfl

/-- The centred form's variance of a real row, as the coercion of a real number. -/
private theorem varC_eq (hr : Fin 1024 → ℝ) :
    varC (fun k => ((hr k : ℝ) : EReal))
      = (((∑ k, (hr k - (∑ k, hr k) * (1 / 1024)) * (hr k - (∑ k, hr k) * (1 / 1024))) * (1 / 1024) : ℝ) : EReal) := by
  rw [varC, cmp_dofC, select_one, meanC_eq, dofC_eq, zeroW_eq, zero_add,
    Ideal.div_coe (by norm_num : (1024 : ℝ) ≠ 0)]
  simp only [← EReal.coe_sub, ← EReal.coe_mul]
  rw [sum_coe (fun k => (hr k - (∑ k, hr k) * (1 / 1024)) * (hr k - (∑ k, hr k) * (1 / 1024))), ← EReal.coe_mul]

/-- The moment form's variance of a real row: the same real number as the centred form's. -/
private theorem varM_eq (hr : Fin 1024 → ℝ) :
    (∑ k, ((hr k : ℝ) : EReal) * ((hr k : ℝ) : EReal)) * invW
        - ((∑ k, ((hr k : ℝ) : EReal)) * invW) * ((∑ k, ((hr k : ℝ) : EReal)) * invW)
      = (((∑ k, (hr k - (∑ k, hr k) * (1 / 1024)) * (hr k - (∑ k, hr k) * (1 / 1024))) * (1 / 1024) : ℝ) : EReal) := by
  rw [sqM_eq, meanM_eq, ← EReal.coe_mul, ← EReal.coe_sub, real_var]

/-! ### The row law -/

/-- On a row of real numbers the two normalisations agree: their means are the same real number, their
    variances are the same real number, and everything else is spelt alike. -/
theorem norm_eq (hr : Fin 1024 → ℝ) (g o : Fin 1024 → EReal) (f : Fin 1024) :
    normMoments (fun k => ((hr k : ℝ) : EReal)) g o f = normCentred (fun k => ((hr k : ℝ) : EReal)) g o f := by
  simp only [normMoments, normCentred]
  rw [varM_eq, meanM_eq, meanC_eq, varC_eq]

/-! ### The clamped dense layer of real arrays is real -/

/-- The larger of two coerced reals is the coercion of the larger. -/
private theorem coe_max' (a b : ℝ) : max ((a : ℝ) : EReal) ((b : ℝ) : EReal) = ((max a b : ℝ) : EReal) :=
  (EReal.coe_strictMono.monotone.map_max).symm

theorem act_real (x : Tok.Idx → EReal) (W : Wts.Idx → EReal) (b : Par.Idx → EReal)
    (hx : ∀ i, ∃ r : ℝ, x i = (r : EReal)) (hW : ∀ i, ∃ r : ℝ, W i = (r : EReal)) (hb : ∀ i, ∃ r : ℝ, b i = (r : EReal))
    (e : Fin 8) (c : Fin 1024) : ∃ hr : Fin 1024 → ℝ, ∀ f, act x W b e c f = ((hr f : ℝ) : EReal) := by
  choose xr hxr using hx
  choose Wr hWr using hW
  choose br hbr using hb
  refine ⟨fun f => max ((∑ d : Fin 1024, xr (ix2 (tok e c) d) * Wr (ix3 e d f)) + br (ix2 e f)) 0, fun f => ?_⟩
  rw [act, zeroW_eq]
  simp only [hxr, hWr, hbr, ← EReal.coe_mul]
  rw [← LibRealSum.coe_sum, ← EReal.coe_add, ← EReal.coe_zero, coe_max']

/-! ### The two whole-array functions agree on real inputs -/

theorem outMoments_eq_outCentred (x : Tok.Idx → EReal) (W : Wts.Idx → EReal) (b g o : Par.Idx → EReal)
    (hx : ∀ i, ∃ r : ℝ, x i = (r : EReal)) (hW : ∀ i, ∃ r : ℝ, W i = (r : EReal)) (hb : ∀ i, ∃ r : ℝ, b i = (r : EReal)) :
    outMoments x W b g o = outCentred x W b g o := by
  have key : ∀ (h g' o' : Fin 1024 → EReal) (f : Fin 1024), (∃ hr : Fin 1024 → ℝ, ∀ k, h k = ((hr k : ℝ) : EReal)) →
      normMoments h g' o' f = normCentred h g' o' f := by
    rintro h g' o' f ⟨hr, hhr⟩
    obtain rfl : h = fun k => ((hr k : ℝ) : EReal) := funext hhr
    exact norm_eq hr g' o' f
  funext i
  simp only [outMoments, outCentred]
  exact key _ _ _ _ (act_real x W b hx hW hb _ _)

end Cert.ExpertNorm

end
-- ==== Proof.Finite.lean ====
/-
  Every float input holds a real number. The precondition is a conjunction of five tests, one per float
  array, each saying that every entry x satisfies |x| < +inf. Over the extended reals |x| = max x (-x), and
  max x (-x) < ⊤ excludes both x = ⊤ (then max = ⊤) and x = ⊥ (then -x = ⊤), so x is the coercion of a real.
-/
import proofs.«105201_j7387343749155_2_alg».proof.Pre_finite_inputs
import proofs.«105201_j7387343749155_2_alg».proof.Proof.Gen.Pre_finite_inputs
import Idealize.ShloMosaic.PureOps.Ideal
import Idealize.ShloMosaic.Lib.ValueIdx
import Idealize.ShloMosaic.Lib.ReduceAll

noncomputable section

namespace Cert.FiniteInputs

open Idealize.ShloMosaic
open Cert.Pre_finite_inputs

/-- The f32 pattern 0x7F800000 (sign 0, exponent all ones, fraction 0) denotes +inf. -/
theorem ofBits_inf : Ideal.ofBits .f32 0x7F800000#32 = (⊤ : EReal) := by
  simp [Ideal.ofBits, Ideal.ieee]

/-- A one-bit word made from a boolean is 1 exactly when the boolean is true. -/
theorem ofBool_eq_one (b : Bool) : BitVec.ofBool b = 1#1 ↔ b = true := by cases b <;> decide

/-- One element: if |x| < +inf holds (as the one-bit word 1) then x is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h1 : Ideal.cmp .olt (max x (-x)) (Ideal.ofBits .f32 0x7F800000#32) = 1#1 := h
  rw [ofBits_inf] at h1
  unfold Ideal.cmp at h1
  rw [ofBool_eq_one] at h1
  have h2 : max x (-x) < (⊤ : EReal) := by simpa using h1
  induction x using EReal.rec with
  | bot => simp at h2
  | top => simp at h2
  | coe r => exact ⟨r, rfl⟩

/-- The rank-0 shape has exactly one index. -/
instance subsingleton_S_ : Subsingleton S_.Idx := ⟨fun a b => funext fun d => d.elim0⟩

/-- One array: if the test "every entry has |x| < +inf", reduced by and over all axes, is 1, every entry is real. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant (F := Ideal) S_ .f32 0x7F800000#32)))
          init hr hu ValueIdx.ix0 = 1#1) :
    ∀ i, ∃ r : ℝ, a i = (r : EReal) := by
  intro i
  have hi := Host.reduce_andi_all _ init hr hu ValueIdx.ix0 e i
  exact real_of_abs_lt_inf (a i) hi

/-- The precondition decoded: the token array, the weight array and the bias array hold real numbers. -/
theorem entries_real [Cert.Pre_finite_inputs.Facts]
    (a0 : FVec Ideal S8192x1024 .f32) (a1 : IVec S8 32) (a2 : FVec Ideal S8x1024x1024 .f32)
    (a3 a4 a5 : FVec Ideal S8x1024 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal)) := by
  have h0 := congrFun h ValueIdx.ix0
  dsimp only [fn, fn_part1] at h0
  simp only [andi, IntOp.andi_eq_one] at h0
  obtain ⟨⟨⟨⟨e0, e2⟩, e3⟩, -⟩, -⟩ := h0
  exact ⟨all_real a0 _ _ _ _ e0, all_real a2 _ _ _ _ e2, all_real a3 _ _ _ _ e3⟩

end Cert.FiniteInputs

end
-- ==== Proof.RefRun.lean ====
/-
  The reference program's run, read back as one function of its arguments.

  The reference is a straight line of fifty-three host operations once its three called functions are written out at
  their call sites: the 8192 token rows regrouped as 8 experts by 1024 slots, each expert's rows multiplied by that
  expert's 1024 x 1024 weight matrix (one batched product), the expert's bias row added, the result clamped below at
  zero (the called function of three operations), each row's mean taken (the sum over the 1024 features, from zero,
  divided by 1024), each row's variance taken by the called function of twenty operations (the row's mean again,
  the squared differences from it summed and divided by 1024 minus the integer zero read as a number, the quotient
  kept where that divisor is positive and replaced by a not-a-number word otherwise: the inner called function of
  three operations), the mean subtracted, the difference multiplied by the inverse square root of the variance plus
  a small constant, scaled by the expert's gain row, shifted by the expert's offset row, and the rows regrouped as
  8192 by 1024.

  `ops` is that list; `main_eq` says the printed program is the list run in order (the called functions unfolded at
  their calls); `refOut` is the composed function of the five float arguments that the list leaves in the result
  buffer, written through named stages (`actArr`, `meanCol`, `varCol`); and `run` says that from any memory every
  weakly fair execution ends with the result buffer at `refOut` of the arguments' contents and the arguments unchanged.
  The statement holds for any float values: it only composes the operations, it does not say what they compute.
-/
import proofs.«105201_j7387343749155_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's fifty-three operations, in order: five of its own (regroup, product, the bias row spread over the
    slots, the sum), the clamp's three, seven for the mean column and the integer zero, the variance's twenty with the
    guard's three inside them, and fifteen of its own for the normalisation, the gain, the offset and the regrouping. -/
abbrev ops : List (HloOp τ sig (Elt F)) :=
  [
    reshape main_arg0 main_v0 rfl shapeCasts_S8192x1024_S8x1024x1024,
    binary main_v0 main_arg2 main_v1 ((fun l r => Host.dotGeneral dot_S8x1024x1024_S8x1024x1024_S8x1024x1024_2_1_1_2_0_0 none l r) : (⟨S8x1024x1024, .f32⟩ : BufTy).Contents (Elt F) → (⟨S8x1024x1024, .f32⟩ : BufTy).Contents (Elt F) → (⟨S8x1024x1024, .f32⟩ : BufTy).Contents (Elt F)),
    unary main_arg3 main_v2 (broadcastInDim S8x1x1024 ![0, 2] bcast_S8x1024_S8x1x1024_0_2 : (⟨S8x1024, .f32⟩ : BufTy).Contents (Elt F) → (⟨S8x1x1024, .f32⟩ : BufTy).Contents (Elt F)),
    unary main_v2 main_v3 (broadcastInDim S8x1024x1024 ![0, 1, 2] bcast_S8x1x1024_S8x1024x1024_0_1_2 : (⟨S8x1x1024, .f32⟩ : BufTy).Contents (Elt F) → (⟨S8x1024x1024, .f32⟩ : BufTy).Contents (Elt F)),
    binary main_v1 main_v3 main_v4 (addf : (⟨S8x1024x1024, .f32⟩ : BufTy).Contents (Elt F) → (⟨S8x1024x1024, .f32⟩ : BufTy).Contents (Elt F) → (⟨S8x1024x1024, .f32⟩ : BufTy).Contents (Elt F)),
    TRef.nullary main_call0.cst (constant S_ .f32 0x00000000#32),
    TRef.unary main_call0.cst main_call0.v0 (broadcastInDim S8x1024x1024 ![] bcast_S_S8x1024x1024),
    TRef.binary (.of main_v4) main_call0.v0 main_call0.v1 maximumf,
    nullary main_cst (constant S_ .f32 0x00000000#32),
    binary main_v5 main_cst main_v6 ((fun x v => Host.reduceAdd x v reducesTo_S8x1024x1024_S8x1024_d2 h_S_) : (⟨S8x1024x1024, .f32⟩ : BufTy).Contents (Elt F) → (⟨S_, .f32⟩ : BufTy).Contents (Elt F) → (⟨S8x1024, .f32⟩ : BufTy).Contents (Elt F)),
    unary main_v6 main_v7 (broadcastInDim S8x1024x1 ![0, 1] bcast_S8x1024_S8x1024x1_0_1 : (⟨S8x1024, .f32⟩ : BufTy).Contents (Elt F) → (⟨S8x1024x1, .f32⟩ : BufTy).Contents (Elt F)),
    nullary main_cst_0 (constant S_ .f32 0x44800000#32),
    unary main_cst_0 main_v8 (broadcastInDim S8x1024x1 ![] bcast_S_S8x1024x1 : (⟨S_, .f32⟩ : BufTy).Contents (Elt F) → (⟨S8x1024x1, .f32⟩ : BufTy).Contents (Elt F)),
    binary main_v7 main_v8 main_v9 (Host.divf : (⟨S8x1024x1, .f32⟩ : BufTy).Contents (Elt F) → (⟨S8x1024x1, .f32⟩ : BufTy).Contents (Elt F) → (⟨S8x1024x1, .f32⟩ : BufTy).Contents (Elt F)),
    nullary main_c (constantI S_ 32 0#32),
    TRef.nullary main_call1.cst (constant S_ .f32 0x00000000#32),
    TRef.binary (.of main_v5) main_call1.cst main_call1.v0 (fun x v => Host.reduceAdd x v reducesTo_S8x1024x1024_S8x1024_d2 h_S_),
    TRef.unary main_call1.v0 main_call1.v1 (broadcastInDim S8x1024x1 ![0, 1] bcast_S8x1024_S8x1024x1_0_1),
    TRef.nullary main_call1.cst_0 (constant S_ .f32 0x44800000#32),
    TRef.unary main_call1.cst_0 main_call1.v2 (broadcastInDim S8x1024x1 ![] bcast_S_S8x1024x1),
    TRef.binary main_call1.v1 main_call1.v2 main_call1.v3 Host.divf,
    TRef.unary main_call1.v3 main_call1.v4 (broadcastInDim S8x1024x1024 ![0, 1, 2] bcast_S8x1024x1_S8x1024x1024_0_1_2),
    TRef.binary (.of main_v5) main_call1.v4 main_call1.v5 subf,
    TRef.binary main_call1.v5 main_call1.v5 main_call1.v6 mulf,
    TRef.unary (.of main_c) main_call1.v7 (sitofp .f32),
    TRef.nullary main_call1.cst_1 (constant S_ .f32 0x44800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S8x1024x1024_S8x1024_d2 h_S_),
    TRef.unary main_call1.v9 main_call1.v10 (broadcastInDim S8x1024x1 ![0, 1] bcast_S8x1024_S8x1024x1_0_1),
    TRef.unary main_call1.v8 main_call1.v11 (broadcastInDim S8x1024x1 ![] bcast_S_S8x1024x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S8x1024x1 ![] bcast_S_S8x1024x1),
    TRef.ternary main_call1.v13 main_call1.v12 main_call1.call0.v1 main_call1.call0.v2 (fun p a b => select (broadcastInDim S8x1024x1 ![] bcast_S_S8x1024x1 p) a b),
    unary main_v9 main_v11 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
    binary main_v5 main_v11 main_v12 (subf : (⟨S8x1024x1024, .f32⟩ : BufTy).Contents (Elt F) → (⟨S8x1024x1024, .f32⟩ : BufTy).Contents (Elt F) → (⟨S8x1024x1024, .f32⟩ : BufTy).Contents (Elt F)),
    nullary main_cst_1 (constant S_ .f32 0x3727C5AC#32),
    unary main_cst_1 main_v13 (broadcastInDim S8x1024x1 ![] bcast_S_S8x1024x1 : (⟨S_, .f32⟩ : BufTy).Contents (Elt F) → (⟨S8x1024x1, .f32⟩ : BufTy).Contents (Elt F)),
    binary main_v10 main_v13 main_v14 (addf : (⟨S8x1024x1, .f32⟩ : BufTy).Contents (Elt F) → (⟨S8x1024x1, .f32⟩ : BufTy).Contents (Elt F) → (⟨S8x1024x1, .f32⟩ : BufTy).Contents (Elt F)),
    unary main_v14 main_v15 (Host.rsqrt : (⟨S8x1024x1, .f32⟩ : BufTy).Contents (Elt F) → (⟨S8x1024x1, .f32⟩ : BufTy).Contents (Elt F)),
    unary main_v15 main_v16 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
    binary main_v12 main_v16 main_v17 (mulf : (⟨S8x1024x1024, .f32⟩ : BufTy).Contents (Elt F) → (⟨S8x1024x1024, .f32⟩ : BufTy).Contents (Elt F) → (⟨S8x1024x1024, .f32⟩ : BufTy).Contents (Elt F)),
    unary main_arg4 main_v18 (broadcastInDim S8x1x1024 ![0, 2] bcast_S8x1024_S8x1x1024_0_2 : (⟨S8x1024, .f32⟩ : BufTy).Contents (Elt F) → (⟨S8x1x1024, .f32⟩ : BufTy).Contents (Elt F)),
    unary main_v18 main_v19 (broadcastInDim S8x1024x1024 ![0, 1, 2] bcast_S8x1x1024_S8x1024x1024_0_1_2 : (⟨S8x1x1024, .f32⟩ : BufTy).Contents (Elt F) → (⟨S8x1024x1024, .f32⟩ : BufTy).Contents (Elt F)),
    binary main_v17 main_v19 main_v20 (mulf : (⟨S8x1024x1024, .f32⟩ : BufTy).Contents (Elt F) → (⟨S8x1024x1024, .f32⟩ : BufTy).Contents (Elt F) → (⟨S8x1024x1024, .f32⟩ : BufTy).Contents (Elt F)),
    unary main_arg5 main_v21 (broadcastInDim S8x1x1024 ![0, 2] bcast_S8x1024_S8x1x1024_0_2 : (⟨S8x1024, .f32⟩ : BufTy).Contents (Elt F) → (⟨S8x1x1024, .f32⟩ : BufTy).Contents (Elt F)),
    unary main_v21 main_v22 (broadcastInDim S8x1024x1024 ![0, 1, 2] bcast_S8x1x1024_S8x1024x1024_0_1_2 : (⟨S8x1x1024, .f32⟩ : BufTy).Contents (Elt F) → (⟨S8x1024x1024, .f32⟩ : BufTy).Contents (Elt F)),
    binary main_v20 main_v22 main_v23 (addf : (⟨S8x1024x1024, .f32⟩ : BufTy).Contents (Elt F) → (⟨S8x1024x1024, .f32⟩ : BufTy).Contents (Elt F) → (⟨S8x1024x1024, .f32⟩ : BufTy).Contents (Elt F)),
    reshape main_v23 main_v24 rfl shapeCasts_S8x1024x1024_S8192x1024 ]

-- fifty-three binds re-associated: the rewrite under the chain recurses once per statement
set_option maxRecDepth 4096 in
/-- The printed program is that straight line: the called functions' bodies unfolded at their calls and the calls'
    buffer records at their fields, both sides are one chain of steps once sequencing is re-associated. -/
theorem main_eq (c : Dev nD) : main (F := F) c = seq ops := by
  simp only [main, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    reshape_bufs_sub .., binary_bufs_sub .., unary_bufs_sub .., unary_bufs_sub .., binary_bufs_sub .., nullary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., reshape_bufs_sub ..⟩

/-! ## The composed function -/

/-- The token rows regrouped by expert: row `e * 1024 + c` becomes slot `c` of expert `e`. -/
def regroup (x : FVec F S8192x1024 .f32) : FVec F S8x1024x1024 .f32 :=
  shapeCast S8x1024x1024 x shapeCasts_S8192x1024_S8x1024x1024

/-- An expert's parameter row repeated over that expert's 1024 slots. -/
def spreadRow (p : FVec F S8x1024 .f32) : FVec F S8x1024x1024 .f32 :=
  broadcastInDim S8x1024x1024 ![0, 1, 2] bcast_S8x1x1024_S8x1024x1024_0_1_2
    (broadcastInDim S8x1x1024 ![0, 2] bcast_S8x1024_S8x1x1024_0_2 p)

/-- A number per row (a column) repeated along the row's 1024 features. -/
def spreadCol (v : FVec F S8x1024x1 .f32) : FVec F S8x1024x1024 .f32 :=
  broadcastInDim S8x1024x1024 ![0, 1, 2] bcast_S8x1024x1_S8x1024x1024_0_1_2 v

/-- One number as the column holding it in every row. -/
def colOf (v : FVec F S_ .f32) : FVec F S8x1024x1 .f32 :=
  broadcastInDim S8x1024x1 ![] bcast_S_S8x1024x1 v

/-- The clamped dense layer: each expert's rows times its weights, plus its bias row, clamped below at zero. -/
def actArr (x : FVec F S8192x1024 .f32) (W : FVec F S8x1024x1024 .f32) (b : FVec F S8x1024 .f32) :
    FVec F S8x1024x1024 .f32 :=
  maximumf
    (addf (Host.dotGeneral dot_S8x1024x1024_S8x1024x1024_S8x1024x1024_2_1_1_2_0_0 none (regroup x) W) (spreadRow b))
    (broadcastInDim S8x1024x1024 ![] bcast_S_S8x1024x1024 (constant S_ .f32 0x00000000#32))

/-- Each row's sum over its 1024 features, started from zero, as a column. -/
def sumCol (h : FVec F S8x1024x1024 .f32) : FVec F S8x1024x1 .f32 :=
  broadcastInDim S8x1024x1 ![0, 1] bcast_S8x1024_S8x1024x1_0_1
    (Host.reduceAdd h (constant S_ .f32 0x00000000#32) reducesTo_S8x1024x1024_S8x1024_d2 h_S_)

/-- Each row's mean: its sum divided by 1024. -/
def meanCol (h : FVec F S8x1024x1024 .f32) : FVec F S8x1024x1 .f32 :=
  Host.divf (sumCol h) (colOf (constant S_ .f32 0x44800000#32))

/-- The variance's divisor: 1024 minus the integer zero read as a number. -/
def dof : FVec F S_ .f32 :=
  subf (constant S_ .f32 0x44800000#32) (sitofp .f32 (constantI S_ 32 0#32))

/-- A row less its mean. -/
def centred (h : FVec F S8x1024x1024 .f32) : FVec F S8x1024x1024 .f32 :=
  subf h (spreadCol (meanCol h))

/-- Each row's variance: the squared differences from the mean, summed from zero and divided by the divisor, where
    the divisor is positive; the not-a-number word otherwise. -/
def varCol (h : FVec F S8x1024x1024 .f32) : FVec F S8x1024x1 .f32 :=
  select (broadcastInDim S8x1024x1 ![] bcast_S_S8x1024x1 (cmpf .ogt (dof (F := F)) (constant S_ .f32 0x00000000#32)))
    (Host.divf (sumCol (mulf (centred h) (centred h))) (colOf dof))
    (colOf (constant S_ .f32 0x7FC00000#32))

/-- The program's result as one function of its five float arguments: the clamped layer, each row less its mean,
    times the inverse square root of its variance plus the small constant, times the gain, plus the offset,
    regrouped as token rows. -/
def refOut (x : FVec F S8192x1024 .f32) (W : FVec F S8x1024x1024 .f32) (b g o : FVec F S8x1024 .f32) :
    FVec F S8192x1024 .f32 :=
  shapeCast S8192x1024
    (addf
      (mulf
        (mulf (centred (actArr x W b))
          (spreadCol (Host.rsqrt (addf (varCol (actArr x W b)) (colOf (constant S_ .f32 0x3727C5AC#32))))))
        (spreadRow g))
      (spreadRow o))
    shapeCasts_S8x1024x1024_S8192x1024

/-! ## The list's results -/

set_option maxRecDepth 8192 in
/-- What the list leaves in the result buffer is `refOut` of what the argument buffers held: each operation's result
    read at its own buffer, every other buffer kept, and the stages' definitions unfolded. -/
theorem out_eq (V : Valuation τ sig (Elt F)) :
    after ops V (main_v24 : DevRef τ sig)
      = refOut (V (main_arg0 : DevRef τ sig)) (V (main_arg2 : DevRef τ sig)) (V (main_arg3 : DevRef τ sig))
          (V (main_arg4 : DevRef τ sig)) (V (main_arg5 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

/-- On every device, for any float values, from any memory with zero counters: every weakly fair execution of the
    program terminates with the result buffer at `refOut` of the arguments' launch contents and the six arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = refOut (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v24).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.RefValue.lean ====
/-
  The reference program's composed function, read index by index over the extended reals.

  Over the extended reals every operation is its textbook one, so each stage of the composed function can be read at
  one index. The two regroupings keep the row-major position: row `r` of the 8192 x 1024 array is slot `r % 1024` of
  expert `r / 1024`. A repeated row or column reads the one element it repeats. The batched product at `(e, c, f)` is
  the sum over `k` of the left operand at `(e, c, k)` times the right operand at `(e, k, f)`: the contraction index has
  one coordinate, and the batch coordinate `e` is shared. A sum over the last axis at `(e, c)` is the initial value
  plus the sum over `k` of the operand at `(e, c, k)`. With these, the clamped layer is the specification's `act`, the
  mean column its `meanC`, the variance column its `varC` (the divisor, the guard on its sign and the word returned
  when the guard fails all read as the specification spells them), and the result at row `r`, feature `f` is the
  specification's centred form there.
-/
import proofs.«105201_j7387343749155_2_alg».proof.Proof.RefRun
import proofs.«105201_j7387343749155_2_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.RefRun Cert.ExpertNorm
open Idealize.ShloMosaic Idealize.ShloMosaic.ValueIdx

/-! ## The layout operations at an index -/

section Layout
variable {α : Type}

/-- Row `e * 1024 + c` of the token array is slot `c` of expert `e`. -/
theorem regroup_apply (x : FVec Ideal S8192x1024 .f32) (e : Fin 8) (c d : Fin 1024) :
    regroup x (ix3 e c d) = x (ix2 (tok e c) d) :=
  shapeCast_apply x shapeCasts_S8192x1024_S8x1024x1024 _ _ (by
    rw [Shape.rowMajor_val_three, Shape.rowMajor_val_two]
    rfl)

/-- An expert's parameter row repeated over the slots reads the row. -/
theorem spreadRow_apply (p : FVec Ideal S8x1024 .f32) (e : Fin 8) (c f : Fin 1024) :
    spreadRow p (ix3 e c f) = p (ix2 e f) := by
  unfold spreadRow
  refine (broadcastInDim_apply _ _ _ (ix3 e c f) (ix3 e (0 : Fin 1) f) fun a => ?_).trans ?_
  · match a with
    | ⟨0, _⟩ => rfl
    | ⟨1, _⟩ => rfl
    | ⟨2, _⟩ => rfl
  · refine broadcastInDim_apply _ _ _ (ix3 e (0 : Fin 1) f) (ix2 e f) fun a => ?_
    match a with
    | ⟨0, _⟩ => rfl
    | ⟨1, _⟩ => rfl

/-- A column repeated along the features reads the column. -/
theorem spreadCol_apply (v : FVec Ideal S8x1024x1 .f32) (e : Fin 8) (c f : Fin 1024) :
    spreadCol v (ix3 e c f) = v (ix3 e c (0 : Fin 1)) := by
  unfold spreadCol
  refine broadcastInDim_apply _ _ _ (ix3 e c f) (ix3 e c (0 : Fin 1)) fun a => ?_
  match a with
  | ⟨0, _⟩ => rfl
  | ⟨1, _⟩ => rfl
  | ⟨2, _⟩ => rfl

/-- One number as a column reads the number. -/
theorem colOf_apply (v : FVec Ideal S_ .f32) (i : S8x1024x1.Idx) : colOf v i = v ix0 :=
  broadcastInDim_scalar_apply _ v i

end Layout

/-! ## The batched product at an index -/

/-- The product's dimension numbers: batch axis 0 of both operands, the left operand's axis 2 contracted with the
    right operand's axis 1. -/
abbrev DD : DotDims S8x1024x1024 S8x1024x1024 S8x1024x1024 :=
  dot_S8x1024x1024_S8x1024x1024_S8x1024x1024_2_1_1_2_0_0

/-- The contraction index is its one coordinate `k : Fin 1024`. -/
abbrev kEquiv : DD.contr.Idx ≃ Fin 1024 := contrEquiv1 DD 1024 rfl rfl

/-- The left operand's index for output `(e, c, f)` and contraction coordinate `k` is `(e, c, k)`. -/
theorem dot_lhsIdx (e : Fin 8) (c f k : Fin 1024) : DD.lhsIdx (ix3 e c f) (kEquiv.symm k) = ix3 e c k := by
  funext a; refine Fin.ext ?_
  match a with
  | ⟨0, _⟩ => rfl
  | ⟨1, _⟩ => rfl
  | ⟨2, _⟩ =>
    exact (DD.lhsIdx_val_of_single (cl := (2 : Fin 3)) rfl _ _).trans (contrEquiv1_symm_val DD 1024 rfl rfl k)

/-- The right operand's index for output `(e, c, f)` and contraction coordinate `k` is `(e, k, f)`. -/
theorem dot_rhsIdx (e : Fin 8) (c f k : Fin 1024) : DD.rhsIdx (ix3 e c f) (kEquiv.symm k) = ix3 e k f := by
  funext a; refine Fin.ext ?_
  match a with
  | ⟨0, _⟩ => rfl
  | ⟨1, _⟩ =>
    exact (DD.rhsIdx_val_of_single (cr := (1 : Fin 3)) rfl _ _).trans (contrEquiv1_symm_val DD 1024 rfl rfl k)
  | ⟨2, _⟩ => rfl

/-- The batched product at `(e, c, f)`: expert `e`'s row `c` against column `f` of expert `e`'s matrix. -/
theorem dot_apply (l r : FVec Ideal S8x1024x1024 .f32) (e : Fin 8) (c f : Fin 1024) :
    Host.dotGeneral DD none l r (ix3 e c f) = ∑ k : Fin 1024, l (ix3 e c k) * r (ix3 e k f) := by
  show FloatOps.dotGeneral DD none .single l r (ix3 e c f) = _
  rw [Ideal.dotGeneral_apply, ← Equiv.sum_comp kEquiv.symm]
  refine Finset.sum_congr rfl fun k _ => ?_
  rw [dot_lhsIdx, dot_rhsIdx]

/-! ## The stages at an index -/

/-- The clamped dense layer at `(e, c, f)`. -/
theorem actArr_apply (x : FVec Ideal S8192x1024 .f32) (W : FVec Ideal S8x1024x1024 .f32) (b : FVec Ideal S8x1024 .f32)
    (e : Fin 8) (c f : Fin 1024) : actArr x W b (ix3 e c f) = act x W b e c f := by
  unfold actArr act
  rw [maximumf_apply, addf_apply, dot_apply, spreadRow_apply, broadcastInDim_scalar_apply, constant_apply]
  refine congrArg (fun s => max (s + b (ix2 e f)) zeroW) ?_
  exact Finset.sum_congr rfl fun d _ => by rw [regroup_apply]

/-- A row's sum over its 1024 features, from zero. -/
theorem sumCol_apply (h : FVec Ideal S8x1024x1024 .f32) (e : Fin 8) (c : Fin 1024) (u : Fin 1) :
    sumCol h (ix3 e c u) = zeroW + ∑ k : Fin 1024, h (ix3 e c k) := by
  have hr : S8x1024x1024.Reduces [2] S8x1024 := by decide
  unfold sumCol
  refine (broadcastInDim_apply _ _ _ (ix3 e c u) (ix2 e c) fun a => ?_).trans ?_
  · match a with
    | ⟨0, _⟩ => rfl
    | ⟨1, _⟩ => rfl
  · refine (Ideal.hostReduceAdd_single reducesTo_S8x1024x1024_S8x1024_d2 hr h _ (ix2 e c)).trans ?_
    show zeroW + ∑ k : Fin 1024, h (hr.lift (ix2 e c) k) = _
    refine congrArg (fun s => zeroW + s) (Finset.sum_congr rfl fun k _ => congrArg h ?_)
    funext a; refine Fin.ext ?_
    match a with
    | ⟨0, _⟩ => rfl
    | ⟨1, _⟩ => rfl
    | ⟨2, _⟩ => rfl

/-- A row's mean. -/
theorem meanCol_apply (h : FVec Ideal S8x1024x1024 .f32) (e : Fin 8) (c : Fin 1024) (u : Fin 1) :
    meanCol h (ix3 e c u) = meanC fun k => h (ix3 e c k) := by
  unfold meanCol meanC
  rw [hostDivf_apply, sumCol_apply, colOf_apply, constant_apply]

/-- The variance's divisor. -/
theorem dof_apply : dof (F := Ideal) ix0 = dofC := rfl

/-- A row less its mean, at a feature. -/
theorem centred_apply (h : FVec Ideal S8x1024x1024 .f32) (e : Fin 8) (c f : Fin 1024) :
    centred h (ix3 e c f) = h (ix3 e c f) - meanC fun k => h (ix3 e c k) := by
  unfold centred
  rw [subf_apply, spreadCol_apply, meanCol_apply]

/-- A row's variance. -/
theorem varCol_apply (h : FVec Ideal S8x1024x1024 .f32) (e : Fin 8) (c : Fin 1024) (u : Fin 1) :
    varCol h (ix3 e c u) = varC fun k => h (ix3 e c k) := by
  unfold varCol varC
  rw [select_apply, broadcastInDim_scalar_apply, cmpf_apply, Ideal.cmpf_def, hostDivf_apply, sumCol_apply, colOf_apply,
    colOf_apply, constant_apply, constant_apply, dof_apply]
  refine congrArg (fun s => Scalar.select (Ideal.cmp .ogt dofC zeroW) (Ideal.div (zeroW + s) dofC) nanW) ?_
  exact Finset.sum_congr rfl fun k _ => by rw [mulf_apply, centred_apply]

/-! ## The whole result -/

/-- The program's composed function is the centred form of the specification, index by index: row `r` is slot
    `r % 1024` of expert `r / 1024`. -/
theorem refOut_eq (x : FVec Ideal S8192x1024 .f32) (W : FVec Ideal S8x1024x1024 .f32) (b g o : FVec Ideal S8x1024 .f32) :
    RefRun.refOut (F := Ideal) x W b g o = Cert.ExpertNorm.outCentred x W b g o := by
  funext i
  obtain ⟨r, f, rfl⟩ : ∃ (r : Fin 8192) (f : Fin 1024), i = ix2 r f := ⟨i 0, i 1, eq_ix2 i⟩
  have hact : (fun k => actArr x W b (ix3 (expertOf r) (slotOf r) k)) = act x W b (expertOf r) (slotOf r) :=
    funext fun k => actArr_apply x W b _ _ k
  unfold refOut
  refine (shapeCast_apply _ shapeCasts_S8x1024x1024_S8192x1024 (ix2 r f) (ix3 (expertOf r) (slotOf r) f) ?_).trans ?_
  · rw [Shape.rowMajor_val_three, Shape.rowMajor_val_two]
    show (r.val / 1024 * 1024 + r.val % 1024) * 1024 + f.val = r.val * 1024 + f.val
    omega
  · rw [addf_apply, mulf_apply, mulf_apply, centred_apply, spreadCol_apply, spreadRow_apply, spreadRow_apply]
    show (_ - _) * Ideal.rsqrt (addf (varCol (actArr x W b)) (colOf (constant S_ .f32 0x3727C5AC#32)) (ix3 (expertOf r) (slotOf r) (0 : Fin 1))) * _ + _ = _
    rw [addf_apply, varCol_apply, colOf_apply, constant_apply, hact, actArr_apply]
    rfl

end Cert.ReferenceIdeal.RefValue

end
-- ==== Proof.lean ====
/-
  The kernel and its reference compute one function.

  Eight experts each own 1024 consecutive rows of the 8192 x 1024 token array. Expert `e` multiplies its rows by its
  1024 x 1024 weight matrix, adds its bias row, clamps the result below at zero, and normalises every row to mean zero
  and unit variance before scaling by its gain row and adding its offset row. The kernel does this one expert per grid
  point and takes a row's variance from its two raw moments, `(∑ h²) / 1024 - ((∑ h) / 1024)²`, with the division
  spelt as a product with the exact constant 2^-10; the reference works on the whole 8 x 1024 x 1024 array and takes the
  variance as the mean of the squared differences from the mean.

  Over the extended reals the two variances are the same number when the row consists of real numbers, and need not
  be when an infinity occurs (there `∞ - ∞` is met on one side and not on the other); the precondition that every
  float input is finite makes every row of the clamped layer real, which is where it is used. Everything else — a
  sum taken in another order or tiling, a change of float format, a matrix product on the kernel's unit against the
  host's, the two spellings of the inverse square root — is the same extended real on both sides.

  The modules: Spec states both forms of the function; RowLaw proves them equal on real rows and the clamped layer
  real on real inputs; Finite reads "every entry is real" off the precondition; BlockValue reads the kernel's body at
  an entry of its block and ArrayValue assembles the eight blocks into the whole result; RefRun reads the reference's
  fifty-three host operations back as one function and RefValue reads that function at an index. Here the claims are
  assembled: the three frames, the idealisation (which rewrote nothing), and the equality of the results.
-/
import proofs.«105201_j7387343749155_2_alg».proof.Defs
import proofs.«105201_j7387343749155_2_alg».proof.Proof.Gen.Kernel
import proofs.«105201_j7387343749155_2_alg».proof.Proof.Gen.Kernel.Skeleton
import proofs.«105201_j7387343749155_2_alg».proof.Proof.Gen.Kernel.Launch
import proofs.«105201_j7387343749155_2_alg».proof.Proof.Gen.Kernel.Points
import proofs.«105201_j7387343749155_2_alg».proof.Proof.Gen.Kernel.Frame
import proofs.«105201_j7387343749155_2_alg».proof.Proof.Gen.KernelIdeal
import proofs.«105201_j7387343749155_2_alg».proof.Proof.Gen.KernelIdeal.Skeleton
import proofs.«105201_j7387343749155_2_alg».proof.Proof.Gen.KernelIdeal.Launch
import proofs.«105201_j7387343749155_2_alg».proof.Proof.Gen.KernelIdeal.Points
import proofs.«105201_j7387343749155_2_alg».proof.Proof.Gen.KernelIdeal.Frame
import proofs.«105201_j7387343749155_2_alg».proof.Proof.Gen.KernelIdeal.Value
import proofs.«105201_j7387343749155_2_alg».proof.Proof.Gen.ReferenceIdeal
import proofs.«105201_j7387343749155_2_alg».proof.Proof.Gen.Pre_finite_inputs
import proofs.«105201_j7387343749155_2_alg».proof.Proof.ArrayValue
import proofs.«105201_j7387343749155_2_alg».proof.Proof.RowLaw
import proofs.«105201_j7387343749155_2_alg».proof.Proof.Finite
import proofs.«105201_j7387343749155_2_alg».proof.Proof.RefRun
import proofs.«105201_j7387343749155_2_alg».proof.Proof.RefValue
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- The same of the kernel read over the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- Reading the kernel over the extended reals rewrote no operation, so there is nothing to preserve. -/
theorem preserves : Cert.preserves_Kernel_KernelIdeal := trivial

/-- From memories that agree on the arguments, with every float argument finite, both programs end with the same
    result: the kernel's array is the moment form of the function (the eight blocks assembled), the reference's is
    the centred form (its operations read at an index), and on real rows the two forms are one. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, -, a2, a3, a4, a5⟩ := hagree c
  obtain ⟨hx, hW, hb⟩ := Cert.FiniteInputs.entries_real _ _ _ _ _ _ (hpre c)
  rw [a0, a2, a3, a4, a5, Cert.ReferenceIdeal.RefValue.refOut_eq]
  exact (Cert.ExpertNorm.outMoments_eq_outCentred _ _ _ _ _ hx hW hb).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
